-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216 : Shape := ⟨1, ![16777216]⟩
abbrev S131072x128 : Shape := ⟨2, ![131072, 128]⟩
abbrev S4096x128 : Shape := ⟨2, ![4096, 128]⟩

abbrev nBuf : Space → Nat
  | .hbm => 12
  | .vmem => 12
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S16777216, .f32⟩
  | .hbm, ⟨10, _⟩ => ⟨S16777216, .f32⟩
  | .hbm, ⟨11, _⟩ => ⟨S16777216, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16777216_S131072x128 : S16777216.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S16777216 : S131072x128.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .i1⟩
  | .hbm, ⟨9, _⟩ => ⟨S_, .f32⟩
  | .hbm, ⟨10, _⟩ => ⟨S16777216, .f32⟩
  | .hbm, ⟨11, _⟩ => ⟨S16777216, .i1⟩
  | .hbm, ⟨12, _⟩ => ⟨S16777216, .i1⟩
  | .hbm, ⟨13, _⟩ => ⟨S_, .f32⟩
  | .hbm, ⟨14, _⟩ => ⟨S16777216, .f32⟩
  | .hbm, ⟨15, _⟩ => ⟨S16777216, .i1⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S16777216, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S_, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S_, .f32⟩
  | .hbm, ⟨38, _⟩ => ⟨S_, .f32⟩
  | .hbm, ⟨39, _⟩ => ⟨S16777216, .f32⟩
  | .hbm, ⟨40, _⟩ => ⟨S16777216, .f32⟩
  | .hbm, ⟨41, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_call1_v0 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_call2_v0 : Ref sig .tc := ⟨.hbm, 33, rfl⟩
abbrev main_call2_v1 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_call4_v0 : Ref sig .tc := ⟨.hbm, 38, rfl⟩
abbrev main_call4_v1 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)

variable [Facts₀]

class Facts : Prop extends Facts₀ where

variable [Facts]
-- ==== Proof.Pointwise.lean ====
/-
  The interval ReLU on one element, and on whole arrays.

  Three arrays go in — a point `x` and the two ends `low`, `high` of an interval — and three come out, each
  element depending only on the elements at the same index:

    x_out    = max x 0
    crossing = (low < 0) and (high > 0)          the interval straddles zero
    dead     = (high ≤ 0)                        the interval lies left of zero
    d        = high - low  if crossing, else 1   a denominator that is the width only where it is used
    low_out  = 0 · low                                           if crossing
             = 0 if dead, else low                               otherwise
    high_out = (high / (d + ε)) · high + (0 - low · high) / d    if crossing
             = 0 if dead, else high                              otherwise

  with ε the single-precision number nearest to 1e-7. The functions are written over any float instance,
  with exactly the operations the kernel's body uses; `0 - v` is how the body spells a negation.
-/
import Idealize.ShloMosaic.PureOps

namespace Cert.IntervalRelu

open Idealize.ShloMosaic

variable {F : FTy → Type} [FloatOps F]

/-- The three constants, as the words both programs carry: `0`, `1` and the guard `ε ≈ 1e-7`. -/
abbrev zero : F .f32 := FloatOps.ofBits .f32 0x00000000#32
abbrev one : F .f32 := FloatOps.ofBits .f32 0x3F800000#32
abbrev eps : F .f32 := FloatOps.ofBits .f32 0x33D6BF95#32

/-- `max x 0`. -/
def relu (x : F .f32) : F .f32 := FloatOps.maximumf x zero

/-- The interval `[l, h]` straddles zero. -/
def crossing (l h : F .f32) : BitVec 1 := IntOp.andi (FloatOps.cmpf .olt l zero) (FloatOps.cmpf .ogt h zero)

/-- The interval lies left of zero. -/
def dead (h : F .f32) : BitVec 1 := FloatOps.cmpf .ole h zero

/-- The interval's width where it straddles zero, `1` elsewhere. -/
def width (l h : F .f32) : F .f32 := Scalar.select (crossing l h) (FloatOps.subf h l) one

/-- The upper line through `(l, 0)` and `(h, h)` evaluated at `h`: slope `h / (width + ε)` times `h`, plus the
    intercept `-(l · h) / width`. -/
def upper (l h : F .f32) : F .f32 :=
  FloatOps.addf (FloatOps.mulf (FloatOps.divf h (FloatOps.addf (width l h) eps)) h)
    (FloatOps.divf (FloatOps.subf zero (FloatOps.mulf l h)) (width l h))

/-- The new upper end. -/
def highOut (l h : F .f32) : F .f32 :=
  Scalar.select (crossing l h) (upper l h) (Scalar.select (dead h) zero h)

/-- The new lower end. -/
def lowOut (l h : F .f32) : F .f32 :=
  Scalar.select (crossing l h) (FloatOps.mulf zero l) (Scalar.select (dead h) zero l)

/-! ## On whole arrays of any shape -/

variable {s : Shape}

/-- `relu` at every index. -/
def reluArr (x : s.Idx → F .f32) : s.Idx → F .f32 := fun i => relu (x i)
/-- `lowOut` at every index. -/
def lowArr (l h : s.Idx → F .f32) : s.Idx → F .f32 := fun i => lowOut (l i) (h i)
/-- `highOut` at every index. -/
def highArr (l h : s.Idx → F .f32) : s.Idx → F .f32 := fun i => highOut (l i) (h i)

end Cert.IntervalRelu
-- ==== Proof.Payload.lean ====
/-
  What the kernel's body computes from the blocks it loads.

  The body loads one block of each of `x`, `low`, `high`, casts each to its own shape (the identity), and
  stores three values built from them by element-by-element operations only. So each stored value is, at
  every index of the block, the interval ReLU's function of the loaded elements at that index.
-/
import proofs.«105742_j5437428597466_1_alg».proof.Proof.Gen.KernelIdeal.Skeleton
import proofs.«105742_j5437428597466_1_alg».proof.Proof.Pointwise
import Idealize.ShloMosaic.Lib.Pipeline.Value

noncomputable section

namespace Cert.KernelIdeal.Body

open Cert.KernelIdeal Cert.KernelIdeal.Gen Idealize.ShloMosaic Cert.IntervalRelu

variable {F : FTy → Type} [FloatOps F]

/-- The cast of the loaded `low` block to its own shape is the block. -/
theorem low_cast (v2 : Vec F S4096x128 .f32) : k0_pay1 v2 = v2 := shapeCast_self _ _

/-- The cast of the loaded `high` block to its own shape is the block. -/
theorem high_cast (v4 : Vec F S4096x128 .f32) : k0_pay2 v4 = v4 := shapeCast_self _ _

/-- The body's mask "the interval straddles zero", index by index. -/
theorem crossing_mask (v2 v4 : Vec F S4096x128 .f32) : k0_pay3 v2 v4 = fun j => crossing (v2 j) (v4 j) := by
  unfold k0_pay3
  rw [low_cast, high_cast]
  rfl

/-- The body's mask "the interval lies left of zero", index by index. -/
theorem dead_mask (v4 : Vec F S4096x128 .f32) : k0_pay4 v4 = fun j => dead (v4 j) := by
  unfold k0_pay4
  rw [high_cast]
  rfl

/-- The value stored to the first output: `max x 0` at every index. -/
theorem x_payload (v0 : Vec F S4096x128 .f32) : k0_pay7 v0 = reluArr v0 := by
  unfold k0_pay7
  rw [shapeCast_self]
  rfl

/-- The value stored to the second output: the new lower end at every index. -/
theorem low_payload (v2 v4 : Vec F S4096x128 .f32) : k0_pay6 v2 v4 = lowArr v2 v4 := by
  unfold k0_pay6
  rw [low_cast, crossing_mask, dead_mask]
  rfl

/-- The value stored to the third output: the new upper end at every index. -/
theorem high_payload (v2 v4 : Vec F S4096x128 .f32) : k0_pay5 v2 v4 = highArr v2 v4 := by
  unfold k0_pay5
  rw [low_cast, high_cast, crossing_mask, dead_mask]
  rfl

end Cert.KernelIdeal.Body

end
-- ==== Proof.Blocks.lean ====
/-
  From the blocks the grid points write back to the three output arrays.

  The grid has 32 points. At point `t` every one of the six windows — three inputs, three outputs — is the
  block of rows `4096·t … 4096·t + 4095` (all 128 columns) of its [131072, 128] array. So the block an output
  window writes back at `t` is the interval ReLU's function, index by index, of the input arrays read at the
  SAME rows and columns; the 32 blocks tile the array (row `r` lies in the block of point `r / 4096`); and each
  output array therefore ends holding that function of the whole input arrays.
-/
import proofs.«105742_j5437428597466_1_alg».proof.Proof.Gen.KernelIdeal.Frame
import proofs.«105742_j5437428597466_1_alg».proof.Proof.Payload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Cert.IntervalRelu Cert.KernelIdeal.Body

variable {F : FTy → Type} [FloatOps F]
variable (m : (ℓ : Loc nD τ sig) → Buf (Elt F) ℓ) (ρ : Dev nD → PrngReg)

/-- The body's loads and stores start at row 0, column 0 of the staging buffer. -/
theorem offsets_zero : (![0, 0] : Fin 2 → Nat) = fun _ => 0 := funext fun a => by fin_cases a <;> rfl

/-- At point `t` each window's block index is `(t, 0)`: decided over the 32 points. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-! ## The first output: `max x 0` -/

/-- What point `t` writes back to the first output is block `t` of `max x 0` of the first input array. -/
theorem flushed_x (c : Dev nD) (t : Fin cfg0.N) :
    (dats m 0 c).flushed 3 t = ((cfg0.win 3).blk t).view.read (Elt F) (reluArr (s := S131072x128) (V m c main_v0)) := by
  show (cfg0.win 3).cut (grid0.coords t) ((dats m 0 c).after 3 t) = _
  rw [after0_3]
  unfold out0_3
  rw [View.canon_unit_zero offsets_zero]
  simp only [View.ld_unit_zero (S := S4096x128) offsets_zero]
  rw [x_payload]
  obtain ⟨⟨a0, a1⟩, -, -, ⟨d0, d1⟩, -, -⟩ := block_index t
  funext j
  show relu (V m c main_v0 (((cfg0.win 0).blk t).view.emb j)) = relu (V m c main_v0 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * (j 1).val = win0_3.index t (1 : Fin 2) * 128 + 1 * (j 1).val; omega
  rw [h0]

/-- An index of the first output array is in point `t`'s block iff each coordinate is in the block's range. -/
theorem mem_block_x (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v3_0).slice (win0_3.rect t)).set ↔ _
  rw [View.set_slice_whole, Rect.mem_set_unit]
  exact Iff.rfl

/-- Every index of the first output array is in the block of the point `row / 4096`. -/
theorem cover_x (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, Nat.lt_of_lt_of_eq (by omega : (i 0).val / 4096 < 32) N_0.symm⟩, rfl⟩
  obtain ⟨-, -, -, ⟨d0, d1⟩, -, -⟩ := block_index t
  refine ⟨t, flush0_3 t, ?_⟩
  rw [mem_block_x]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- The first output array after the region: `max x 0` of the first input array, index by index. -/
theorem final_x (c : Dev nD) : (dats m 0 c).arrAt 3 cfg0.N = reluArr (s := S131072x128) (V m c main_v0) :=
  (dats m 0 c).arrAt_eq_of_cover 3 _ (fun t _ => flushed_x m c t) cover_x

/-! ## The second output: the new lower end -/

/-- What point `t` writes back to the second output is block `t` of the new lower end of the two interval arrays. -/
theorem flushed_low (c : Dev nD) (t : Fin cfg0.N) :
    (dats m 0 c).flushed 4 t = ((cfg0.win 4).blk t).view.read (Elt F) (lowArr (s := S131072x128) (V m c main_v1) (V m c main_v2)) := by
  show (cfg0.win 4).cut (grid0.coords t) ((dats m 0 c).after 4 t) = _
  rw [after0_4]
  unfold out0_4
  rw [View.canon_unit_zero offsets_zero]
  simp only [View.ld_unit_zero (S := S4096x128) offsets_zero]
  rw [low_payload]
  obtain ⟨-, ⟨b0, b1⟩, ⟨c0, c1⟩, -, ⟨d0, d1⟩, -⟩ := block_index t
  funext j
  show lowOut (V m c main_v1 (((cfg0.win 1).blk t).view.emb j)) (V m c main_v2 (((cfg0.win 2).blk t).view.emb j))
    = lowOut (V m c main_v1 (((cfg0.win 4).blk t).view.emb j)) (V m c main_v2 (((cfg0.win 4).blk t).view.emb j))
  have h1 : ((cfg0.win 1).blk t).view.emb j = ((cfg0.win 4).blk t).view.emb j := by
    funext a; apply Fin.ext
    match a with
    | ⟨0, _⟩ => show win0_1.index t (0 : Fin 2) * 4096 + 1 * (j 0).val = win0_4.index t (0 : Fin 2) * 4096 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 4096 + 1 * (j 0).val = win0_4.index t (0 : Fin 2) * 4096 + 1 * (j 0).val; omega
    | ⟨1, _⟩ => show win0_2.index t (1 : Fin 2) * 128 + 1 * (j 1).val = win0_4.index t (1 : Fin 2) * 128 + 1 * (j 1).val; omega
  rw [h1, h2]

/-- An index of the second output array is in point `t`'s block iff each coordinate is in the block's range. -/
theorem mem_block_low (t : Fin cfg0.N) (i : S131072x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v3_1).slice (win0_4.rect t)).set ↔ _
  rw [View.set_slice_whole, Rect.mem_set_unit]
  exact Iff.rfl

/-- Every index of the second output array is in the block of the point `row / 4096`. -/
theorem cover_low (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, Nat.lt_of_lt_of_eq (by omega : (i 0).val / 4096 < 32) N_0.symm⟩, rfl⟩
  obtain ⟨-, -, -, -, ⟨d0, d1⟩, -⟩ := block_index t
  refine ⟨t, flush0_4 t, ?_⟩
  rw [mem_block_low]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- The second output array after the region: the new lower end of the two interval arrays, index by index. -/
theorem final_low (c : Dev nD) :
    (dats m 0 c).arrAt 4 cfg0.N = lowArr (s := S131072x128) (V m c main_v1) (V m c main_v2) :=
  (dats m 0 c).arrAt_eq_of_cover 4 _ (fun t _ => flushed_low m c t) cover_low

/-! ## The third output: the new upper end -/

/-- What point `t` writes back to the third output is block `t` of the new upper end of the two interval arrays. -/
theorem flushed_high (c : Dev nD) (t : Fin cfg0.N) :
    (dats m 0 c).flushed 5 t = ((cfg0.win 5).blk t).view.read (Elt F) (highArr (s := S131072x128) (V m c main_v1) (V m c main_v2)) := by
  show (cfg0.win 5).cut (grid0.coords t) ((dats m 0 c).after 5 t) = _
  rw [after0_5]
  unfold out0_5
  rw [View.canon_unit_zero offsets_zero]
  simp only [View.ld_unit_zero (S := S4096x128) offsets_zero]
  rw [high_payload]
  obtain ⟨-, ⟨b0, b1⟩, ⟨c0, c1⟩, -, -, ⟨d0, d1⟩⟩ := block_index t
  funext j
  show highOut (V m c main_v1 (((cfg0.win 1).blk t).view.emb j)) (V m c main_v2 (((cfg0.win 2).blk t).view.emb j))
    = highOut (V m c main_v1 (((cfg0.win 5).blk t).view.emb j)) (V m c main_v2 (((cfg0.win 5).blk t).view.emb j))
  have h1 : ((cfg0.win 1).blk t).view.emb j = ((cfg0.win 5).blk t).view.emb j := by
    funext a; apply Fin.ext
    match a with
    | ⟨0, _⟩ => show win0_1.index t (0 : Fin 2) * 4096 + 1 * (j 0).val = win0_5.index t (0 : Fin 2) * 4096 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb j = ((cfg0.win 5).blk t).view.emb j := by
    funext a; apply Fin.ext
    match a with
    | ⟨0, _⟩ => show win0_2.index t (0 : Fin 2) * 4096 + 1 * (j 0).val = win0_5.index t (0 : Fin 2) * 4096 + 1 * (j 0).val; omega
    | ⟨1, _⟩ => show win0_2.index t (1 : Fin 2) * 128 + 1 * (j 1).val = win0_5.index t (1 : Fin 2) * 128 + 1 * (j 1).val; omega
  rw [h1, h2]

/-- An index of the third output array is in point `t`'s block iff each coordinate is in the block's range. -/
theorem mem_block_high (t : Fin cfg0.N) (i : S131072x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v3_2).slice (win0_5.rect t)).set ↔ _
  rw [View.set_slice_whole, Rect.mem_set_unit]
  exact Iff.rfl

/-- Every index of the third output array is in the block of the point `row / 4096`. -/
theorem cover_high (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, Nat.lt_of_lt_of_eq (by omega : (i 0).val / 4096 < 32) N_0.symm⟩, rfl⟩
  obtain ⟨-, -, -, -, -, ⟨d0, d1⟩⟩ := block_index t
  refine ⟨t, flush0_5 t, ?_⟩
  rw [mem_block_high]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The third output array after the region: the new upper end of the two interval arrays, index by index. -/
theorem final_high (c : Dev nD) :
    (dats m 0 c).arrAt 5 cfg0.N = highArr (s := S131072x128) (V m c main_v1) (V m c main_v2) :=
  (dats m 0 c).arrAt_eq_of_cover 5 _ (fun t _ => flushed_high m c t) cover_high

end Cert.KernelIdeal.Region

end
-- ==== Proof.LibReshapeMap.lean ====
/-
  A pointwise map between two reshapes.

  A reshape keeps every element at its row-major position, so reshaping an array to another shape and back is
  the identity. Hence an array that is reshaped, mapped element by element (one operand, or two operands
  combined element by element), and reshaped back to its first shape is the same map applied to the array
  itself: nothing about the coordinates of either shape has to be computed.
-/
import Idealize.ShloMosaic.Lib.Pipeline.Value

namespace Cert.Lib.ReshapeMap

open Idealize.ShloMosaic

variable {s t : Shape} {α β γ : Type}

/-- Reshape `x` from `s` to `t`, apply `f` to every element, reshape back to `s`: that is `f` applied to every
    element of `x`. -/
theorem shapeCast_map_shapeCast (f : α → β) (x : s.Idx → α) (h : s.ShapeCasts t) (h' : t.ShapeCasts s) :
    shapeCast s (fun i => f (shapeCast t x h i)) h' = fun j => f (x j) :=
  funext fun j => congrArg f (congrFun (shapeCast_shapeCast x h h') j)

/-- The same for two operands combined element by element: reshape `x` and `y` from `s` to `t`, combine them by
    `f` at every index, reshape back: that is `f` of the elements of `x` and `y` at every index of `s`. -/
theorem shapeCast_map₂_shapeCast (f : α → β → γ) (x : s.Idx → α) (y : s.Idx → β) (h : s.ShapeCasts t)
    (h' : t.ShapeCasts s) :
    shapeCast s (fun i => f (shapeCast t x h i) (shapeCast t y h i)) h' = fun j => f (x j) (y j) :=
  funext fun j => congrArg₂ f (congrFun (shapeCast_shapeCast x h h') j) (congrFun (shapeCast_shapeCast y h h') j)

end Cert.Lib.ReshapeMap
-- ==== Proof.KernelRun.lean ====
/-
  The kernel's program from arguments to results.

  Around its one region the program only reshapes: each flat argument of 16777216 elements is viewed as a
  [131072, 128] array before the region, and each [131072, 128] output array is viewed flat again after it.
  The region applies the interval ReLU index by index, so each result is a reshape, an element-by-element map,
  and the reshape back — that is, the map applied to the flat arguments themselves.
-/
import proofs.«105742_j5437428597466_1_alg».proof.Proof.Blocks
import proofs.«105742_j5437428597466_1_alg».proof.Proof.LibReshapeMap
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)
open Cert.IntervalRelu Cert.KernelIdeal.Region Cert.Lib.ReshapeMap

variable {F : FTy → Type} [FloatOps F]
variable (m : (ℓ : Loc nD τ sig) → Buf (Elt F) ℓ) (ρ : Dev nD → PrngReg)

/-! ## The arrays the region finds -/

/-- The first input window's array is the first argument, reshaped. -/
theorem entry_x (c : Dev nD) :
    (V m c main_v0 : S131072x128.Idx → Elt F .f32)
      = shapeCast S131072x128 (m ((c : Thread nD τ).loc main_arg0)) shapeCasts_S16777216_S131072x128 := by
  show StableHlo.after hostOps0 (fun b => m (c, b)) (Proc.devRef .tc main_v0) = _
  after_results
  rfl

/-- The second input window's array is the second argument, reshaped. -/
theorem entry_low (c : Dev nD) :
    (V m c main_v1 : S131072x128.Idx → Elt F .f32)
      = shapeCast S131072x128 (m ((c : Thread nD τ).loc main_arg1)) shapeCasts_S16777216_S131072x128 := by
  show StableHlo.after hostOps0 (fun b => m (c, b)) (Proc.devRef .tc main_v1) = _
  after_results
  rfl

/-- The third input window's array is the third argument, reshaped. -/
theorem entry_high (c : Dev nD) :
    (V m c main_v2 : S131072x128.Idx → Elt F .f32)
      = shapeCast S131072x128 (m ((c : Thread nD τ).loc main_arg2)) shapeCasts_S16777216_S131072x128 := by
  show StableHlo.after hostOps0 (fun b => m (c, b)) (Proc.devRef .tc main_v2) = _
  after_results
  rfl

/-! ## The results -/

/-- The first result: `max x 0` of the first argument, index by index. -/
theorem result_x (c : Dev nD) :
    Pipeline.afterTail₀ cfgs (dats m) 0 (V0 m) [hostOps1] c main_v4
      = reluArr (s := S16777216) (m ((c : Thread nD τ).loc main_arg0)) := by
  have hw : (Pipeline.withArrays spec0 c (V0 m c) (fun w => (dats m 0 c).arrAt w cfg0.N) (Proc.devRef .tc main_v3_0)
        : S131072x128.Idx → Elt F .f32)
      = reluArr (s := S131072x128) (shapeCast S131072x128 (m ((c : Thread nD τ).loc main_arg0)) shapeCasts_S16777216_S131072x128) :=
    (Pipeline.withArrays_arr spec0 launch0.win.arr_inj c _ _ 3).trans
      ((final_x m c).trans (congrArg (reluArr (s := S131072x128)) (entry_x m c)))
  unfold Pipeline.afterTail₀
  show StableHlo.after hostOps1 _ (Proc.devRef .tc main_v4) = _
  after_results
  exact (congrArg (fun A : S131072x128.Idx → Elt F .f32 => shapeCast S16777216 A shapeCasts_S131072x128_S16777216) hw).trans
    (shapeCast_map_shapeCast relu _ _ _)

/-- The second result: the new lower end of the second and third arguments, index by index. -/
theorem result_low (c : Dev nD) :
    Pipeline.afterTail₀ cfgs (dats m) 0 (V0 m) [hostOps1] c main_v5
      = lowArr (s := S16777216) (m ((c : Thread nD τ).loc main_arg1)) (m ((c : Thread nD τ).loc main_arg2)) := by
  have hw : (Pipeline.withArrays spec0 c (V0 m c) (fun w => (dats m 0 c).arrAt w cfg0.N) (Proc.devRef .tc main_v3_1)
        : S131072x128.Idx → Elt F .f32)
      = lowArr (s := S131072x128) (shapeCast S131072x128 (m ((c : Thread nD τ).loc main_arg1)) shapeCasts_S16777216_S131072x128)
          (shapeCast S131072x128 (m ((c : Thread nD τ).loc main_arg2)) shapeCasts_S16777216_S131072x128) :=
    (Pipeline.withArrays_arr spec0 launch0.win.arr_inj c _ _ 4).trans
      ((final_low m c).trans (congrArg₂ (lowArr (s := S131072x128)) (entry_low m c) (entry_high m c)))
  unfold Pipeline.afterTail₀
  show StableHlo.after hostOps1 _ (Proc.devRef .tc main_v5) = _
  after_results
  exact (congrArg (fun A : S131072x128.Idx → Elt F .f32 => shapeCast S16777216 A shapeCasts_S131072x128_S16777216) hw).trans
    (shapeCast_map₂_shapeCast lowOut _ _ _ _)

/-- The third result: the new upper end of the second and third arguments, index by index. -/
theorem result_high (c : Dev nD) :
    Pipeline.afterTail₀ cfgs (dats m) 0 (V0 m) [hostOps1] c main_v6
      = highArr (s := S16777216) (m ((c : Thread nD τ).loc main_arg1)) (m ((c : Thread nD τ).loc main_arg2)) := by
  have hw : (Pipeline.withArrays spec0 c (V0 m c) (fun w => (dats m 0 c).arrAt w cfg0.N) (Proc.devRef .tc main_v3_2)
        : S131072x128.Idx → Elt F .f32)
      = highArr (s := S131072x128) (shapeCast S131072x128 (m ((c : Thread nD τ).loc main_arg1)) shapeCasts_S16777216_S131072x128)
          (shapeCast S131072x128 (m ((c : Thread nD τ).loc main_arg2)) shapeCasts_S16777216_S131072x128) :=
    (Pipeline.withArrays_arr spec0 launch0.win.arr_inj c _ _ 5).trans
      ((final_high m c).trans (congrArg₂ (highArr (s := S131072x128)) (entry_low m c) (entry_high m c)))
  unfold Pipeline.afterTail₀
  show StableHlo.after hostOps1 _ (Proc.devRef .tc main_v6) = _
  after_results
  exact (congrArg (fun A : S131072x128.Idx → Elt F .f32 => shapeCast S16777216 A shapeCasts_S131072x128_S16777216) hw).trans
    (shapeCast_map₂_shapeCast highOut _ _ _ _)

/-! ## The run -/

/-- Every weakly fair execution of the kernel's program terminates with the three results at the interval ReLU of
    the arguments, index by index, and the arguments unchanged. -/
theorem run : θ_run defs (onTc (τ := τ) (main (F := F))) ⟨m, fun _ => 0, ρ⟩ fun r => ∀ c : Dev nD,
      r.2.mem ((c.tc : Thread nD τ).loc main_v4) = reluArr (s := S16777216) (m ((c.tc : Thread nD τ).loc main_arg0))
      ∧ r.2.mem ((c.tc : Thread nD τ).loc main_v5) = lowArr (s := S16777216) (m ((c.tc : Thread nD τ).loc main_arg1)) (m ((c.tc : Thread nD τ).loc main_arg2))
      ∧ r.2.mem ((c.tc : Thread nD τ).loc main_v6) = highArr (s := S16777216) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_x m c),
      ((h c).2 main_v5 (Pipeline.mem_restRefs_of main_v5 (by decide) (by decide))).trans (result_low m c),
      ((h c).2 main_v6 (Pipeline.mem_restRefs_of main_v6 (by decide) (by decide))).trans (result_high m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefStages.lean ====
/-
  The reference, index by index.

  The reference is a straight line of element-by-element host operations on the three flat arrays, its
  constants scalars broadcast to the arrays' shape. Read at an index, each of its three results is therefore a
  function of the arguments' elements at that index, and at the exact values that function is the interval
  ReLU's: the host's quotient is the kernel's quotient, and the host's negation `-v` is the kernel's `0 - v`
  (true of every extended real, the infinities included), which is the one place the two programs are spelt
  differently.
-/
import proofs.«105742_j5437428597466_1_alg».proof.Proof.Gen.ReferenceIdeal.Read
import proofs.«105742_j5437428597466_1_alg».proof.Proof.Pointwise
import Idealize.ShloMosaic.Lib.KernelVsHost

noncomputable section

namespace Cert.ReferenceIdeal.Stages

open Cert.ReferenceIdeal Cert.ReferenceIdeal.Read Idealize.ShloMosaic Cert.IntervalRelu

/-- The first result is `max x 0` at every index. -/
theorem x_stage (x0 : S16777216.Idx → Ideal .f32) : val_main_v0 (F := Ideal) x0 = reluArr x0 := by
  funext i
  rw [val_main_v0_apply, val_main_call0_v0_apply, val_main_call0_cst_apply]
  rfl

/-- The second result is the new lower end at every index. -/
theorem low_stage (x1 x2 : S16777216.Idx → Ideal .f32) : val_main_v23 (F := Ideal) x1 x2 = lowArr x1 x2 := by
  funext i
  simp only [val_main_v23_apply, val_main_v5_apply, val_main_v2_apply, val_main_v1_apply, val_main_cst_apply,
    val_main_v4_apply, val_main_v3_apply, val_main_cst_0_apply, val_main_v19_apply, val_main_v18_apply,
    val_main_cst_4_apply, val_main_v22_apply, val_main_v7_apply, val_main_v6_apply, val_main_cst_1_apply,
    val_main_call4_v1_apply, val_main_call4_v0_apply, val_main_cst_6_apply]
  rfl

/-- The third result is the new upper end at every index: the host's negation of `low · high` is `0 - low · high`. -/
theorem high_stage (x1 x2 : S16777216.Idx → Ideal .f32) : val_main_v21 (F := Ideal) x1 x2 = highArr x1 x2 := by
  funext i
  simp only [val_main_v21_apply, val_main_v5_apply, val_main_v2_apply, val_main_v1_apply, val_main_cst_apply,
    val_main_v4_apply, val_main_v3_apply, val_main_cst_0_apply, val_main_v17_apply, val_main_v16_apply,
    val_main_v12_apply, val_main_v11_apply, val_main_v9_apply, val_main_v8_apply, val_main_call1_v0_apply,
    val_main_cst_2_apply, val_main_v10_apply, val_main_cst_3_apply, val_main_v15_apply, val_main_v14_apply,
    val_main_v13_apply, val_main_v20_apply, val_main_v7_apply, val_main_v6_apply, val_main_cst_1_apply,
    val_main_call2_v1_apply, val_main_call2_v0_apply, val_main_cst_5_apply]
  rw [← Ideal.subf_zero_eq_hostNegf]
  rfl

end Cert.ReferenceIdeal.Stages

end
-- ==== Proof.lean ====
/-
  The interval ReLU: a tiled kernel against its flat reference.

  Both programs take three flat arrays of 16777216 numbers — a point `x` and the ends `low`, `high` of an
  interval — and return `max x 0` and the interval's new ends (Proof/Pointwise.lean has the formulas). The
  reference computes them on the flat arrays by element-by-element host operations. The kernel views each array
  as [131072, 128], walks a grid of 32 points, at point `t` loads rows `4096·t … 4096·t + 4095` of each input,
  computes the same formulas on the block, stores the three blocks at the same rows of the outputs, and
  finally views the outputs flat again.

  Every operation involved is element by element, and a reshape there and back is the identity, so at the
  exact values both programs compute, at every index, the same function of the three arguments' elements at that
  index. The only difference in spelling is the negation of `low · high`: the kernel writes `0 - v`, the
  reference `-v`; these agree on every extended real. No property of the inputs is used.

    Proof/Pointwise.lean      the formulas, on one element and on arrays
    Proof/Payload.lean        the kernel body's three stored values are those formulas of the loaded blocks
    Proof/Blocks.lean         the 32 blocks tile each output array: the array after the region
    Proof/LibReshapeMap.lean  reshape, map, reshape back = map
    Proof/KernelRun.lean      the kernel's program from arguments to results
    Proof/RefStages.lean      the reference's three results at an index
-/
import proofs.«105742_j5437428597466_1_alg».proof.Defs
import proofs.«105742_j5437428597466_1_alg».proof.Proof.Gen.Kernel
import proofs.«105742_j5437428597466_1_alg».proof.Proof.Gen.Kernel.Skeleton
import proofs.«105742_j5437428597466_1_alg».proof.Proof.Gen.Kernel.Launch
import proofs.«105742_j5437428597466_1_alg».proof.Proof.Gen.Kernel.Points
import proofs.«105742_j5437428597466_1_alg».proof.Proof.Gen.Kernel.Frame
import proofs.«105742_j5437428597466_1_alg».proof.Proof.Gen.KernelIdeal
import proofs.«105742_j5437428597466_1_alg».proof.Proof.Gen.KernelIdeal.Skeleton
import proofs.«105742_j5437428597466_1_alg».proof.Proof.Gen.KernelIdeal.Launch
import proofs.«105742_j5437428597466_1_alg».proof.Proof.Gen.KernelIdeal.Points
import proofs.«105742_j5437428597466_1_alg».proof.Proof.Gen.KernelIdeal.Frame
import proofs.«105742_j5437428597466_1_alg».proof.Proof.Gen.ReferenceIdeal
import proofs.«105742_j5437428597466_1_alg».proof.Proof.Gen.ReferenceIdeal.Run
import proofs.«105742_j5437428597466_1_alg».proof.Proof.Gen.ReferenceIdeal.Read
import proofs.«105742_j5437428597466_1_alg».proof.Proof.Gen.Pre_finite_inputs
import proofs.«105742_j5437428597466_1_alg».proof.Proof.KernelRun
import proofs.«105742_j5437428597466_1_alg».proof.Proof.RefStages
import Idealize.ShloMosaic.Adequacy
import Idealize.ShloMosaic.Init

noncomputable section

namespace Cert.Proof

open Idealize.ShloMosaic Idealize.ShloMosaic.TcCoe Idealize.SL.Sem Cert.IntervalRelu

/-- The kernel as printed runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Nothing of the kernel was rewritten when it was printed for the exact values. -/
theorem preserves : Cert.preserves_Kernel_KernelIdeal := trivial

/-- At the exact values, from arguments that agree, both programs end with the interval ReLU of the arguments in
    their three results: `max x 0`, the new lower end, the new upper end, index by index. -/
theorem algebraic : Cert.algebraic_KernelIdeal_ReferenceIdeal := by
  intro m ρ m' ρ' _ hagree
  refine ⟨_, _, _, Cert.KernelIdeal.Whole.run (F := Ideal) m ρ, ?_⟩
  refine (θ_run Cert.ReferenceIdeal.defs _ _).mono (fun _ h c => ?_) (Cert.ReferenceIdeal.Value.run (F := Ideal) m' ρ')
  obtain ⟨h0, h23, h21, ha0, ha1, ha2⟩ := h c
  obtain ⟨e0, e1, e2⟩ := hagree c
  refine ⟨?_, ?_, ?_, ha0, ha1, ha2⟩
  · rw [h0, Cert.ReferenceIdeal.Read.val_main_v0_eq, Cert.ReferenceIdeal.Stages.x_stage, e0]
  · rw [h23, Cert.ReferenceIdeal.Read.val_main_v23_eq, Cert.ReferenceIdeal.Stages.low_stage, e1, e2]
  · rw [h21, Cert.ReferenceIdeal.Read.val_main_v21_eq, Cert.ReferenceIdeal.Stages.high_stage, e1, e2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
